-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x64 : Shape := ⟨3, ![32, 2048, 64]⟩
abbrev S_ : Shape := ⟨0, ![]⟩

class Facts : Prop where
  bcast_S_S32x2048x64 : S_.BroadcastsInDim S32x2048x64 (![] : Fin 0 → Fin S32x2048x64.rank)
  reducesTo_S32x2048x64_S_d0_1_2 : S32x2048x64.ReducesTo [0, 1, 2] S_
  h_S_ : 0 < S_.numel

variable [Facts]

def fn {F : FTy → Type} [FloatOps F] (main_arg0 : FVec F S32x2048x64 .f32) (main_arg1 : FVec F S32x2048x64 .f32) (main_arg2 : FVec F S32x2048x64 .f32) : IVec S_ 1 :=
  let main_v0 : FVec F S32x2048x64 .f32 := Host.absf main_arg0
  let main_cst : FVec F S_ .f32 := constant S_ .f32 0x7F800000#32
  let main_v1 : FVec F S32x2048x64 .f32 := broadcastInDim S32x2048x64 ![] bcast_S_S32x2048x64 main_cst
  let main_v2 : IVec S32x2048x64 1 := cmpf .olt main_v0 main_v1
  let main_c : IVec S_ 1 := constantI S_ 1 1#1
  let main_v3 : IVec S_ 1 := (fun x v => Host.reduce IntOp.andi x v reducesTo_S32x2048x64_S_d0_1_2 h_S_) main_v2 main_c
  let main_v4 : FVec F S32x2048x64 .f32 := Host.absf main_arg1
  let main_cst_0 : FVec F S_ .f32 := constant S_ .f32 0x7F800000#32
  let main_v5 : FVec F S32x2048x64 .f32 := broadcastInDim S32x2048x64 ![] bcast_S_S32x2048x64 main_cst_0
  let main_v6 : IVec S32x2048x64 1 := cmpf .olt main_v4 main_v5
  let main_c_1 : IVec S_ 1 := constantI S_ 1 1#1
  let main_v7 : IVec S_ 1 := (fun x v => Host.reduce IntOp.andi x v reducesTo_S32x2048x64_S_d0_1_2 h_S_) main_v6 main_c_1
  let main_v8 : IVec S_ 1 := andi main_v3 main_v7
  let main_v9 : FVec F S32x2048x64 .f32 := Host.absf main_arg2
  let main_cst_2 : FVec F S_ .f32 := constant S_ .f32 0x7F800000#32
  let main_v10 : FVec F S32x2048x64 .f32 := broadcastInDim S32x2048x64 ![] bcast_S_S32x2048x64 main_cst_2
  let main_v11 : IVec S32x2048x64 1 := cmpf .olt main_v9 main_v10
  let main_c_3 : IVec S_ 1 := constantI S_ 1 1#1
  let main_v12 : IVec S_ 1 := (fun x v => Host.reduce IntOp.andi x v reducesTo_S32x2048x64_S_d0_1_2 h_S_) main_v11 main_c_3
  let main_v13 : IVec S_ 1 := andi main_v8 main_v12
  main_v13
-- ==== Kernel.lean ====
abbrev S32x2048x64 : Shape := ⟨3, ![32, 2048, 64]⟩
abbrev S32x2048x2048 : Shape := ⟨3, ![32, 2048, 2048]⟩
abbrev S1x1024x64 : Shape := ⟨3, ![1, 1024, 64]⟩
abbrev S1x2048x64 : Shape := ⟨3, ![1, 2048, 64]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x64, .f32⟩
  | .hbm, ⟨4, _⟩ => ⟨S32x2048x2048, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x64, .f32⟩
  | .local _ .vmem, ⟨7, _⟩ => ⟨S1x1024x64, .f32⟩
  | .local _ .vmem, ⟨8, _⟩ => ⟨S1x1024x2048, .f32⟩
  | .local _ .vmem, ⟨9, _⟩ => ⟨S1x1024x2048, .f32⟩
  | _, _ => ⟨S32x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S1024x2048_S1024 : S1024x2048.Reduces [1] S1024
  shapeCasts_S1024_S1024x1 : S1024.ShapeCasts S1024x1
  broadcasts_S1024x1_S1024x2048 : S1024x1.Broadcasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S32x2048x64.size a
  hwx0_0 : ∀ i : grid0.Coords, EltTy.bits .f32 = 32 ∨ (Rect.block (s := S32x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x64.size a ≤ S32x2048x64.size a
  hwx0_3 : ∀ i : grid0.Coords, EltTy.bits .f32 = 32 ∨ (Rect.block (s := S32x2048x64) S1x1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S32x2048x2048.size a
  hwx0_4 : ∀ i : grid0.Coords, EltTy.bits .f32 = 32 ∨ (Rect.block (s := S32x2048x2048) S1x1024x2048.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x2048x64 : Shape := ⟨3, ![32, 2048, 64]⟩
abbrev S32x2048x2048 : Shape := ⟨3, ![32, 2048, 2048]⟩
abbrev S_ : Shape := ⟨0, ![]⟩
abbrev S32x2048 : Shape := ⟨2, ![32, 2048]⟩
abbrev S32x2048x1 : Shape := ⟨3, ![32, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S32x2048x64, .f32⟩
  | .hbm, ⟨1, _⟩ => ⟨S32x2048x64, .f32⟩
  | .hbm, ⟨2, _⟩ => ⟨S32x2048x64, .f32⟩
  | .hbm, ⟨3, _⟩ => ⟨S32x2048x2048, .f32⟩
  | .hbm, ⟨4, _⟩ => ⟨S_, .f32⟩
  | .hbm, ⟨5, _⟩ => ⟨S32x2048x2048, .f32⟩
  | .hbm, ⟨6, _⟩ => ⟨S32x2048x2048, .f32⟩
  | .hbm, ⟨7, _⟩ => ⟨S_, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S32x2048x1, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S_, .f32⟩
  | .hbm, ⟨17, _⟩ => ⟨S32x2048, .f32⟩
  | .hbm, ⟨18, _⟩ => ⟨S32x2048x1, .f32⟩
  | .hbm, ⟨19, _⟩ => ⟨S32x2048x2048, .f32⟩
  | .hbm, ⟨20, _⟩ => ⟨S32x2048x2048, .f32⟩
  | .hbm, ⟨21, _⟩ => ⟨S32x2048x64, .f32⟩
  | _, _ => ⟨S32x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S32x2048x2048 : S_.BroadcastsInDim S32x2048x2048 (![] : Fin 0 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  dot_S32x2048x64_S32x2048x64_S32x2048x2048_2_2_1_1_0_0_wf : DotDims.WF S32x2048x64 S32x2048x64 S32x2048x2048 [2] [2] [1] [1] [0] [0]
  dot_S32x2048x2048_S32x2048x64_S32x2048x64_2_1_1_2_0_0_wf : DotDims.WF S32x2048x2048 S32x2048x64 S32x2048x64 [2] [1] [1] [2] [0] [0]

variable [Facts₀]

def dot_S32x2048x64_S32x2048x64_S32x2048x2048_2_2_1_1_0_0 : DotDims S32x2048x64 S32x2048x64 S32x2048x2048 where
  lhsContracting := [2]
  rhsContracting := [2]
  lhsNonContracting := [1]
  rhsNonContracting := [1]
  lhsBatch := [0]
  rhsBatch := [0]
  wf := dot_S32x2048x64_S32x2048x64_S32x2048x2048_2_2_1_1_0_0_wf
def dot_S32x2048x2048_S32x2048x64_S32x2048x64_2_1_1_2_0_0 : DotDims S32x2048x2048 S32x2048x64 S32x2048x64 where
  lhsContracting := [2]
  rhsContracting := [1]
  lhsNonContracting := [1]
  rhsNonContracting := [2]
  lhsBatch := [0]
  rhsBatch := [0]
  wf := dot_S32x2048x2048_S32x2048x64_S32x2048x64_2_1_1_2_0_0_wf

class Facts : Prop extends Facts₀ where

variable [Facts]
-- ==== Proof.Softmax.lean ====
/-
  Scaled dot-product attention over f32[32, 2048, 64] arguments, as two functions of the argument arrays on the
  extended reals: the attention matrix (a softmax along the key axis of the scaled scores) and the output (that
  matrix times the values). Also here: the three float literals the two programs spell, and the one algebraic law
  that separates them — a score scaled by 1/8 inside the contraction over the head dimension equals the
  contraction divided by 8 afterwards. The law is distributivity of a nonnegative finite factor over a sum of
  extended reals, which holds at the infinities too, so nothing here asks the entries to be finite.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-! ## The literals -/

/-- The scale 0.125 is the rational 1/8. -/
theorem ofBits_eighth : Ideal.ofBits .f32 0x3E000000#32 = ((1 / 8 : ℝ) : EReal) := by
  simp [Ideal.ofBits, Ideal.ieee, -EReal.coe_mul]; norm_num

/-- The divisor 8.0 is the real 8. -/
theorem ofBits_eight : Ideal.ofBits .f32 0x41000000#32 = ((8 : ℝ) : EReal) := by
  simp [Ideal.ofBits, Ideal.ieee, -EReal.coe_mul]; norm_num

/-- The word a maximum starts from is minus infinity. -/
theorem ofBits_negInf : Ideal.ofBits .f32 0xFF800000#32 = (⊥ : EReal) := by
  simp [Ideal.ofBits, Ideal.ieee]

/-- The scale as an extended real. -/
abbrev eighth : EReal := ((1 / 8 : ℝ) : EReal)

/-! ## The softmax of one row -/

/-- The largest entry of a row (minus infinity for an empty one). -/
def rowMax {n : Nat} (s : Fin n → EReal) : EReal := (Finset.univ : Finset (Fin n)).fold max ⊥ s

/-- Entry `j` of the row, shifted by the row's maximum and exponentiated. -/
def rowExp {n : Nat} (s : Fin n → EReal) (j : Fin n) : EReal := Ideal.exp (s j - rowMax s)

/-- Entry `j` of the row's softmax: its shifted exponential over the sum of the row's. -/
def softRow {n : Nat} (s : Fin n → EReal) (j : Fin n) : EReal := Ideal.div (rowExp s j) (∑ k : Fin n, rowExp s k)

/-! ## The scale moves across the contraction -/

/-- A sum of extended reals times 1/8 is the sum of the terms times 1/8: the factor is nonnegative and finite. -/
theorem sum_mul_eighth {ι : Type} (t : Finset ι) (f : ι → EReal) : (∑ d ∈ t, f d) * eighth = ∑ d ∈ t, f d * eighth := by
  classical
  induction t using Finset.induction_on with
  | empty => simp
  | insert a t ha ih =>
    rw [Finset.sum_insert ha, Finset.sum_insert ha,
      EReal.right_distrib_of_nonneg_of_ne_top (EReal.coe_nonneg.mpr (by norm_num)) (EReal.coe_ne_top _), ih]

/-- Scaling one factor of every product by 1/8 and summing is summing and dividing by 8. -/
theorem scaled_dot {n : Nat} (a b : Fin n → EReal) :
    ∑ d : Fin n, (a d * eighth) * b d = Ideal.div (∑ d : Fin n, a d * b d) ((8 : ℝ) : EReal) := by
  rw [Ideal.div_coe (by norm_num : (8 : ℝ) ≠ 0), sum_mul_eighth]
  exact Finset.sum_congr rfl fun d _ => mul_right_comm _ _ _

/-! ## The two results -/

/-- An argument array: batch, position, head dimension. -/
abbrev Arg := (⟨3, ![32, 2048, 64]⟩ : Shape).Idx → EReal

/-- The scaled scores of query position `i` of batch `b` against every key position. -/
def score (q k : Arg) (b : Fin 32) (i : Fin 2048) : Fin 2048 → EReal :=
  fun j => ∑ d : Fin 64, (q (ix3 b i d) * eighth) * k (ix3 b j d)

/-- The attention matrix: at (batch, query, key) the softmax over the keys of the query's scaled scores. -/
def attn (q k : Arg) : (⟨3, ![32, 2048, 2048]⟩ : Shape).Idx → EReal :=
  fun x => softRow (score q k (x 0) (x 1)) (x 2)

/-- The output: at (batch, query, head dimension) the attention row times the values' column. -/
def out (q k v : Arg) : (⟨3, ![32, 2048, 64]⟩ : Shape).Idx → EReal :=
  fun x => ∑ j : Fin 2048, attn q k (ix3 (x 0) (x 1) j) * v (ix3 (x 0) j (x 2))

end Cert.Attention

end
-- ==== Proof.RefSide.lean ====
/-
  The reference's two results are the attention matrix and the output of `Cert.Attention`: read stage by stage,
  its scores are the contraction over the head dimension divided by 8 (equal to the scaled contraction by
  `scaled_dot`), its row maximum is the fold of `max` from minus infinity over the key axis (taking the maximum
  with minus infinity once more changes nothing), and the exponentials, their sum from zero, the quotient and the
  second contraction are those of the specification.
-/
import proofs.«140942_j23364622090566_2_alg».proof.Proof.Gen.ReferenceIdeal.Read
import proofs.«140942_j23364622090566_2_alg».proof.Proof.Softmax
import Idealize.ShloMosaic.PureOps.Reduce

noncomputable section

namespace Cert.Attention.Ref

open Cert.ReferenceIdeal Cert.ReferenceIdeal.Read Idealize.ShloMosaic Idealize.ShloMosaic.ValueIdx Cert.Attention

/-- The reference's scaled score at (batch, query, key). -/
theorem score_eq (q k : Arg) (x : S32x2048x2048.Idx) :
    val_main_v2 (F := Ideal) q k x = score q k (x 0) (x 1) (x 2) := by
  rw [val_main_v2_apply, val_main_v0_apply, val_main_v1_apply, val_main_cst_apply]
  simp only [Ideal.hostDivf_def, Ideal.ofBits_def, ofBits_eight]
  unfold score
  rw [scaled_dot]
  refine congrArg (fun s => Ideal.div s _) (Finset.sum_congr rfl fun d _ => ?_)
  have el : lidx_main_v0 x d = ix3 (x 0) (x 1) d := funext fun a => Fin.ext (by
    match a with | ⟨0, _⟩ => rfl | ⟨1, _⟩ => rfl | ⟨2, _⟩ => rfl)
  have er : ridx_main_v0 x d = ix3 (x 0) (x 2) d := funext fun a => Fin.ext (by
    match a with | ⟨0, _⟩ => rfl | ⟨1, _⟩ => rfl | ⟨2, _⟩ => rfl)
  rw [el, er]
  rfl

/-- The reduction over the key axis, as a fact about the literal shapes. -/
theorem reduces_keys : S32x2048x2048.Reduces [2] S32x2048 := by decide

/-- The reference's row maximum at (batch, query). -/
theorem max_eq (q k : Arg) (j : S32x2048.Idx) :
    val_main_v5 (F := Ideal) q k j = rowMax (score q k (j 0) (j 1)) := by
  rw [val_main_v5_apply, val_main_v4_apply, val_main_cst_1_apply]
  unfold val_main_v3
  rw [Host.reduce_eq_fold_single _ _ _ _ reduces_keys]
  simp only [Ideal.maximumf_def, Ideal.ofBits_def, val_main_cst_0_apply, ofBits_negInf, bot_le, max_eq_right]
  unfold rowMax
  refine Finset.fold_congr fun kk _ => ?_
  show val_main_v2 (F := Ideal) q k (reduces_keys.lift j kk) = _
  rw [score_eq]
  rfl

/-- The reference's shifted exponential at (batch, query, key). -/
theorem exp_eq (q k : Arg) (x : S32x2048x2048.Idx) :
    val_main_v9 (F := Ideal) q k x = rowExp (score q k (x 0) (x 1)) (x 2) := by
  rw [val_main_v9_apply, val_main_v8_apply, val_main_v7_apply, val_main_v6_apply, max_eq, score_eq]
  simp only [Ideal.hostUnary_exp_def, Ideal.subf_def]
  rfl

/-- The reference's second result is the attention matrix. -/
theorem attn_eq (q k : Arg) : val_main_v13 (F := Ideal) q k = attn q k := by
  funext x
  rw [val_main_v13_apply, val_main_v12_apply, val_main_v11_apply, val_main_v10_apply, val_main_cst_2_apply, exp_eq]
  simp only [Ideal.hostDivf_def, Ideal.ofBits_def, Ideal.ofBits_zero_f32, zero_add]
  unfold attn softRow
  refine congrArg (Ideal.div _) (Finset.sum_congr rfl fun kk _ => ?_)
  rw [exp_eq]
  rfl

/-- The reference's first result is the output. -/
theorem out_eq (q k v : Arg) : val_main_v14 (F := Ideal) q k v = out q k v := by
  funext x
  rw [val_main_v14_apply, attn_eq]
  unfold out
  refine Finset.sum_congr rfl fun kk _ => ?_
  have el : lidx_main_v14 x kk = ix3 (x 0) (x 1) kk := funext fun a => Fin.ext (by
    match a with | ⟨0, _⟩ => rfl | ⟨1, _⟩ => rfl | ⟨2, _⟩ => rfl)
  have er : ridx_main_v14 x kk = ix3 (x 0) kk (x 2) := funext fun a => Fin.ext (by
    match a with | ⟨0, _⟩ => rfl | ⟨1, _⟩ => rfl | ⟨2, _⟩ => rfl)
  rw [el, er]
  rfl

end Cert.Attention.Ref

end
-- ==== Proof.KerPayload.lean ====
/-
  The kernel body's arithmetic read at an index. For one block of 1024 query rows against all 2048 keys of a batch
  element the body forms the scores (the query rows scaled by 1/8, contracted with the keys over the head
  dimension), takes each row's softmax (maximum along the row from minus infinity, shifted exponentials, their sum
  along the row, the quotient) and contracts the result with the values. Each step is read at explicit coordinates
  over vectors of the literal shapes: the layout operations (a leading unit axis dropped or added; a column kept as
  a [1024, 1] array and broadcast along the rows) by their row-major positions, the two reductions as a fold of
  `max` and a sum over the row's 2048 coordinates, and the two matrix products as sums over their one contracted axis.
-/
import proofs.«140942_j23364622090566_2_alg».proof.Proof.Gen.KernelIdeal.Skeleton
import proofs.«140942_j23364622090566_2_alg».proof.Proof.Softmax
import Idealize.ShloMosaic.Lib.Pipeline.Value
import Idealize.ShloMosaic.Lib.ValueIdx
import Idealize.ShloMosaic.PureOps.Ideal.Laws

noncomputable section

namespace Cert.Attention.Ker

open Cert.KernelIdeal Cert.KernelIdeal.Gen Idealize.ShloMosaic Idealize.ShloMosaic.ValueIdx Cert.Attention

/-! ## Layout operations at an index -/

/-- Dropping the leading unit axis of a [1, A, B] block: entry (a, b) is entry (0, a, b). -/
theorem dropUnit_apply {A B : Nat} (P : (⟨3, ![1, A, B]⟩ : Shape).Idx → EReal)
    (h : (⟨3, ![1, A, B]⟩ : Shape).ShapeCasts ⟨2, ![A, B]⟩) (a : Fin A) (b : Fin B) :
    shapeCast ⟨2, ![A, B]⟩ P h (ix2 a b) = P (ix3 (0 : Fin 1) a b) :=
  shapeCast_apply _ h _ _ (by
    rw [Shape.rowMajor_val_three, Shape.rowMajor_val_two]
    show (0 * A + a.val) * B + b.val = a.val * B + b.val
    rw [Nat.zero_mul, Nat.zero_add])

/-- Adding a leading unit axis to an [A, B] array: entry (0, a, b) is entry (a, b). -/
theorem addUnit_apply {A B : Nat} (X : (⟨2, ![A, B]⟩ : Shape).Idx → EReal)
    (h : (⟨2, ![A, B]⟩ : Shape).ShapeCasts ⟨3, ![1, A, B]⟩) (a : Fin A) (b : Fin B) :
    shapeCast ⟨3, ![1, A, B]⟩ X h (ix3 (0 : Fin 1) a b) = X (ix2 a b) :=
  shapeCast_apply _ h _ _ (by
    rw [Shape.rowMajor_val_three, Shape.rowMajor_val_two]
    show a.val * B + b.val = (0 * A + a.val) * B + b.val
    rw [Nat.zero_mul, Nat.zero_add])

/-- A column of 1024 entries kept as a [1024, 1] array and broadcast along the rows: entry (r, j) is the column's entry r. -/
theorem keepdims_apply (y : FVec Ideal S1024 .f32) (h1 : S1024.ShapeCasts S1024x1) (h2 : S1024x1.Broadcasts S1024x2048)
    (r : Fin 1024) (j : Fin 2048) :
    broadcastTo S1024x2048 (shapeCast S1024x1 y h1) h2 (ix2 r j) = y (ix1 r) := by
  refine (broadcastTo_apply _ h2 (ix2 r j) (ix2 r (0 : Fin 1)) (fun a => ?_)).trans ?_
  · match a with
    | ⟨0, _⟩ => show r.val = if (1024 : Nat) = 1 then 0 else r.val; rw [if_neg (by decide)]
    | ⟨1, _⟩ => show 0 = if (1 : Nat) = 1 then 0 else j.val; rw [if_pos rfl]
  · exact shapeCast_apply _ h1 _ (ix1 r) (by
      rw [Shape.rowMajor_val_one, Shape.rowMajor_val_two]
      show r.val = r.val * 1 + 0
      omega)

/-! ## The two reductions along a row -/

/-- The maximum along the keys of row r, from minus infinity. -/
theorem rowmax_apply (X : FVec Ideal S1024x2048 .f32) (h : S1024x2048.Reduces [1] S1024) (hφ : FKind.Formats .f32)
    (hacc : (0xFF800000#32 : BitVec FTy.f32.bits) = FKind.maximumf.neutral .f32 hφ) (r : Fin 1024) :
    multiReduction .maximumf [1] S1024 X 0xFF800000#32 h hφ hacc (ix1 r) = rowMax (fun j : Fin 2048 => X (ix2 r j)) := by
  rw [Ideal.multiReduction_maximumf_single, Ideal.ofBits_def, ofBits_negInf]
  show (Finset.univ : Finset (Fin 2048)).fold max ⊥ (fun k => X (h.lift (ix1 r) k)) = _
  unfold rowMax
  refine Finset.fold_congr fun k _ => congrArg X (funext fun a => Fin.ext ?_)
  match a with
  | ⟨0, _⟩ => rfl
  | ⟨1, _⟩ => rfl

/-- The sum along the keys of row r. -/
theorem rowsum_apply (X : FVec Ideal S1024x2048 .f32) (h : S1024x2048.Reduces [1] S1024) (hφ : FKind.Formats .f32)
    (hacc : (0x00000000#32 : BitVec FTy.f32.bits) = FKind.add.neutral .f32 hφ) (r : Fin 1024) :
    multiReduction .add [1] S1024 X 0x00000000#32 h hφ hacc (ix1 r) = ∑ j : Fin 2048, X (ix2 r j) := by
  rw [Ideal.multiReduction_add_single]
  show ∑ k : Fin 2048, X (h.lift (ix1 r) k) = _
  refine Finset.sum_congr rfl fun k _ => congrArg X (funext fun a => Fin.ext ?_)
  match a with
  | ⟨0, _⟩ => rfl
  | ⟨1, _⟩ => rfl

/-! ## The two matrix products -/

local notation "dotQK" => dot_S1024x64_S2048x64_S1024x2048_1_1_0_0_n_n
local notation "dotPV" => dot_S1024x2048_S2048x64_S1024x64_1_0_0_1_n_n

/-- Queries against keys: the left operand's row is the result's row. -/
theorem qk_lhs0 (i : S1024x2048.Idx) (q : (dotQK).contr.Idx) : ((dotQK).lhsIdx i q 0).val = (i 0).val := by
  unfold DotDims.lhsIdx
  rw [dif_neg (show ¬(0 : Fin S1024x64.rank) ∈ (dotQK).lhsBatch by decide),
    dif_pos (show (0 : Fin S1024x64.rank) ∈ (dotQK).lhsNonContracting by decide)]
  rfl

/-- Queries against keys: the right operand's row is the result's column. -/
theorem qk_rhs0 (i : S1024x2048.Idx) (q : (dotQK).contr.Idx) : ((dotQK).rhsIdx i q 0).val = (i 1).val := by
  unfold DotDims.rhsIdx
  rw [dif_neg (show ¬(0 : Fin S2048x64.rank) ∈ (dotQK).rhsBatch by decide),
    dif_pos (show (0 : Fin S2048x64.rank) ∈ (dotQK).rhsNonContracting by decide)]
  rfl

/-- Probabilities against values: the left operand's row is the result's row. -/
theorem pv_lhs0 (i : S1024x64.Idx) (q : (dotPV).contr.Idx) : ((dotPV).lhsIdx i q 0).val = (i 0).val := by
  unfold DotDims.lhsIdx
  rw [dif_neg (show ¬(0 : Fin S1024x2048.rank) ∈ (dotPV).lhsBatch by decide),
    dif_pos (show (0 : Fin S1024x2048.rank) ∈ (dotPV).lhsNonContracting by decide)]
  rfl

/-- Probabilities against values: the right operand's column is the result's column. -/
theorem pv_rhs1 (i : S1024x64.Idx) (q : (dotPV).contr.Idx) : ((dotPV).rhsIdx i q 1).val = (i 1).val := by
  unfold DotDims.rhsIdx
  rw [dif_neg (show ¬(1 : Fin S2048x64.rank) ∈ (dotPV).rhsBatch by decide),
    dif_pos (show (1 : Fin S2048x64.rank) ∈ (dotPV).rhsNonContracting by decide)]
  rfl

/-- Queries against keys, both contracted over the head dimension: entry (r, j) is the sum over d of A(r, d) · B(j, d). -/
theorem qk_apply (A : FVec Ideal S1024x64 .f32) (B : FVec Ideal S2048x64 .f32) (r : Fin 1024) (j : Fin 2048) :
    matmul dotQK none A B (constant S1024x2048 .f32 0x00000000#32) (ix2 r j) = ∑ d : Fin 64, A (ix2 r d) * B (ix2 j d) := by
  show FloatOps.matmul dotQK none A B (constant S1024x2048 .f32 0x00000000#32) (ix2 r j) = _
  rw [Ideal.matmul_constant_zero_apply, ← Equiv.sum_comp (contrEquiv1 dotQK 64 rfl rfl).symm]
  refine Finset.sum_congr rfl fun k _ => ?_
  have hk := contrEquiv1_symm_val dotQK 64 rfl rfl k
  have el : (dotQK).lhsIdx (ix2 r j) ((contrEquiv1 dotQK 64 rfl rfl).symm k) = ix2 r k := funext fun a => Fin.ext (by
    match a with
    | ⟨0, _⟩ => exact qk_lhs0 _ _
    | ⟨1, _⟩ => exact ((dotQK).lhsIdx_val_of_single rfl _ _).trans hk)
  have er : (dotQK).rhsIdx (ix2 r j) ((contrEquiv1 dotQK 64 rfl rfl).symm k) = ix2 j k := funext fun a => Fin.ext (by
    match a with
    | ⟨0, _⟩ => exact qk_rhs0 _ _
    | ⟨1, _⟩ => exact ((dotQK).rhsIdx_val_of_single rfl _ _).trans hk)
  rw [el, er]

/-- Probabilities against values, contracted over the keys: entry (r, d) is the sum over j of P(r, j) · W(j, d). -/
theorem pv_apply (P : FVec Ideal S1024x2048 .f32) (W : FVec Ideal S2048x64 .f32) (r : Fin 1024) (d : Fin 64) :
    matmul dotPV none P W (constant S1024x64 .f32 0x00000000#32) (ix2 r d) = ∑ j : Fin 2048, P (ix2 r j) * W (ix2 j d) := by
  show FloatOps.matmul dotPV none P W (constant S1024x64 .f32 0x00000000#32) (ix2 r d) = _
  rw [Ideal.matmul_constant_zero_apply, ← Equiv.sum_comp (contrEquiv1 dotPV 2048 rfl rfl).symm]
  refine Finset.sum_congr rfl fun k _ => ?_
  have hk := contrEquiv1_symm_val dotPV 2048 rfl rfl k
  have el : (dotPV).lhsIdx (ix2 r d) ((contrEquiv1 dotPV 2048 rfl rfl).symm k) = ix2 r k := funext fun a => Fin.ext (by
    match a with
    | ⟨0, _⟩ => exact pv_lhs0 _ _
    | ⟨1, _⟩ => exact ((dotPV).lhsIdx_val_of_single rfl _ _).trans hk)
  have er : (dotPV).rhsIdx (ix2 r d) ((contrEquiv1 dotPV 2048 rfl rfl).symm k) = ix2 k d := funext fun a => Fin.ext (by
    match a with
    | ⟨0, _⟩ => exact ((dotPV).rhsIdx_val_of_single rfl _ _).trans hk
    | ⟨1, _⟩ => exact pv_rhs1 _ _)
  rw [el, er]

/-! ## The body's softmax of a block of scores -/

/-- The shifted exponentials of a block of scores, as the body's vector operations. -/
def shiftExp (S : FVec Ideal S1024x2048 .f32) (hr : S1024x2048.Reduces [1] S1024) (h1 : S1024.ShapeCasts S1024x1)
    (h2 : S1024x1.Broadcasts S1024x2048) (hφ : FKind.Formats .f32)
    (hm : (0xFF800000#32 : BitVec FTy.f32.bits) = FKind.maximumf.neutral .f32 hφ) : FVec Ideal S1024x2048 .f32 :=
  exp (subf S (broadcastTo S1024x2048 (shapeCast S1024x1 (multiReduction .maximumf [1] S1024 S 0xFF800000#32 hr hφ hm) h1) h2))

theorem shiftExp_apply (S : FVec Ideal S1024x2048 .f32) (hr : S1024x2048.Reduces [1] S1024) (h1 : S1024.ShapeCasts S1024x1)
    (h2 : S1024x1.Broadcasts S1024x2048) (hφ : FKind.Formats .f32)
    (hm : (0xFF800000#32 : BitVec FTy.f32.bits) = FKind.maximumf.neutral .f32 hφ) (r : Fin 1024) (j : Fin 2048) :
    shiftExp S hr h1 h2 hφ hm (ix2 r j) = rowExp (fun j' : Fin 2048 => S (ix2 r j')) j := by
  show Ideal.exp (S (ix2 r j) - broadcastTo S1024x2048 (shapeCast S1024x1 _ h1) h2 (ix2 r j)) = _
  rw [keepdims_apply, rowmax_apply]
  rfl

/-- The softmax along the rows of a block of scores, as the body's vector operations. -/
def softBlock (S : FVec Ideal S1024x2048 .f32) (hr : S1024x2048.Reduces [1] S1024) (h1 : S1024.ShapeCasts S1024x1)
    (h2 : S1024x1.Broadcasts S1024x2048) (hφ : FKind.Formats .f32)
    (hm : (0xFF800000#32 : BitVec FTy.f32.bits) = FKind.maximumf.neutral .f32 hφ)
    (hs : (0x00000000#32 : BitVec FTy.f32.bits) = FKind.add.neutral .f32 hφ) : FVec Ideal S1024x2048 .f32 :=
  divf (shiftExp S hr h1 h2 hφ hm)
    (broadcastTo S1024x2048 (shapeCast S1024x1 (multiReduction .add [1] S1024 (shiftExp S hr h1 h2 hφ hm) 0x00000000#32 hr hφ hs) h1) h2)

theorem softBlock_apply (S : FVec Ideal S1024x2048 .f32) (hr : S1024x2048.Reduces [1] S1024) (h1 : S1024.ShapeCasts S1024x1)
    (h2 : S1024x1.Broadcasts S1024x2048) (hφ : FKind.Formats .f32)
    (hm : (0xFF800000#32 : BitVec FTy.f32.bits) = FKind.maximumf.neutral .f32 hφ)
    (hs : (0x00000000#32 : BitVec FTy.f32.bits) = FKind.add.neutral .f32 hφ) (r : Fin 1024) (j : Fin 2048) :
    softBlock S hr h1 h2 hφ hm hs (ix2 r j) = softRow (fun j' : Fin 2048 => S (ix2 r j')) j := by
  show Ideal.div (shiftExp S hr h1 h2 hφ hm (ix2 r j)) (broadcastTo S1024x2048 (shapeCast S1024x1 _ h1) h2 (ix2 r j)) = _
  rw [keepdims_apply, rowsum_apply, shiftExp_apply]
  unfold softRow
  refine congrArg (Ideal.div _) (Finset.sum_congr rfl fun k _ => ?_)
  rw [shiftExp_apply]

/-- The block of scaled scores, as the body's vector operations on the loaded query and key blocks. -/
def scoreBlock (X0 : Vec Ideal S1x1024x64 .f32) (X1 : Vec Ideal S1x2048x64 .f32) : FVec Ideal S1024x2048 .f32 :=
  matmul dotQK none
    (mulf (shapeCast S1024x64 X0 Facts₀.shapeCasts_S1x1024x64_S1024x64 : FVec Ideal S1024x64 .f32)
      (broadcast S1024x64 (Scalar.ofBits .f32 0x3E000000#32)))
    (shapeCast S2048x64 X1 Facts₀.shapeCasts_S1x2048x64_S2048x64 : FVec Ideal S2048x64 .f32)
    (constant S1024x2048 .f32 0x00000000#32)

theorem scoreBlock_apply (X0 : Vec Ideal S1x1024x64 .f32) (X1 : Vec Ideal S1x2048x64 .f32) (r : Fin 1024) (j : Fin 2048) :
    scoreBlock X0 X1 (ix2 r j) = ∑ d : Fin 64, (X0 (ix3 (0 : Fin 1) r d) * eighth) * X1 (ix3 (0 : Fin 1) j d) := by
  unfold scoreBlock
  refine (qk_apply _ _ r j).trans (Finset.sum_congr rfl fun d _ => ?_)
  exact congrArg₂ (· * ·)
    (congrArg₂ (· * ·) (dropUnit_apply (A := 1024) (B := 64) X0 Facts₀.shapeCasts_S1x1024x64_S1024x64 r d) ofBits_eighth)
    (dropUnit_apply (A := 2048) (B := 64) X1 Facts₀.shapeCasts_S1x2048x64_S2048x64 j d)

/-! ## The payloads -/

/-- The first payload (the probabilities of the block) is the softmax of the block of scores. -/
theorem pay1_eq (X0 : Vec Ideal S1x1024x64 .f32) (X1 : Vec Ideal S1x2048x64 .f32) :
    k0_pay1 X0 X1 = softBlock (scoreBlock X0 X1) Facts₀.reduces_S1024x2048_S1024 Facts₀.shapeCasts_S1024_S1024x1
      Facts₀.broadcasts_S1024x1_S1024x2048 (.inl rfl) rfl rfl := rfl

/-- The probabilities at (r, j): the softmax over the keys of query row r's scaled scores. -/
theorem pay1_apply (X0 : Vec Ideal S1x1024x64 .f32) (X1 : Vec Ideal S1x2048x64 .f32) (r : Fin 1024) (j : Fin 2048) :
    k0_pay1 X0 X1 (ix2 r j)
      = softRow (fun j' : Fin 2048 => ∑ d : Fin 64, (X0 (ix3 (0 : Fin 1) r d) * eighth) * X1 (ix3 (0 : Fin 1) j' d)) j := by
  refine (congrFun (pay1_eq X0 X1) (ix2 r j)).trans ((softBlock_apply _ _ _ _ _ _ _ r j).trans ?_)
  exact congrArg (fun s => softRow s j) (funext fun j' => scoreBlock_apply X0 X1 r j')

/-- The third payload (the output block) is the probabilities times the values, with a leading unit axis. -/
theorem pay3_eq (X0 : Vec Ideal S1x1024x64 .f32) (X1 X2 : Vec Ideal S1x2048x64 .f32) :
    k0_pay3 X0 X1 X2 = shapeCast S1x1024x64
      (matmul dotPV none (k0_pay1 X0 X1) (shapeCast S2048x64 X2 Facts₀.shapeCasts_S1x2048x64_S2048x64 : FVec Ideal S2048x64 .f32)
        (constant S1024x64 .f32 0x00000000#32)) Facts₀.shapeCasts_S1024x64_S1x1024x64 := rfl

/-- The output block at (0, r, d): the sum over the keys of the probabilities of row r times the values' column d. -/
theorem pay3_apply (X0 : Vec Ideal S1x1024x64 .f32) (X1 X2 : Vec Ideal S1x2048x64 .f32) (r : Fin 1024) (d : Fin 64) :
    k0_pay3 X0 X1 X2 (ix3 (0 : Fin 1) r d) = ∑ j : Fin 2048, k0_pay1 X0 X1 (ix2 r j) * X2 (ix3 (0 : Fin 1) j d) := by
  refine (congrFun (pay3_eq X0 X1 X2) _).trans ?_
  refine (addUnit_apply (A := 1024) (B := 64) _ Facts₀.shapeCasts_S1024x64_S1x1024x64 r d).trans ?_
  refine (pv_apply _ _ r d).trans (Finset.sum_congr rfl fun j _ => ?_)
  exact congrArg (k0_pay1 X0 X1 (ix2 r j) * ·) (dropUnit_apply (A := 2048) (B := 64) X2 Facts₀.shapeCasts_S1x2048x64_S2048x64 j d)

end Cert.Attention.Ker

end
-- ==== Proof.KerBlocks.lean ====
/-
  From blocks to arrays. The grid has 32 × 2 points; point (b, h) stages rows 1024·h … 1024·h + 1023 of batch
  element b of the queries, all 2048 rows of batch element b of the keys and of the values, and writes back the
  same 1024 rows of batch element b of each result. So what a point writes to the attention matrix is, row by row,
  the softmax of that query row's scaled scores against all keys of its batch element, and what it writes to the
  output is that row times the values: the block of the specification's two arrays. The 64 blocks tile each result
  array (row i of batch element b lies in the block of point (b, i / 1024)), so each array ends at the
  specification's function of the argument arrays.
-/
import proofs.«140942_j23364622090566_2_alg».proof.Proof.Gen.KernelIdeal.Value
import proofs.«140942_j23364622090566_2_alg».proof.Proof.KerPayload
import Idealize.ShloMosaic.Lib.Pipeline.Value

set_option maxRecDepth 16384

noncomputable section

namespace Cert.Attention.Blocks

open Cert.KernelIdeal Cert.KernelIdeal.Gen Cert.KernelIdeal.Value Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-! ## The index maps over the grid -/

/-- Every window's block index in terms of the attention window's: the same batch element everywhere, the same
    row block for the queries and the output, block 0 on every other axis; and the ranges. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_4.index t (2 : Fin 3) = 0 ∧ win0_4.index t (0 : Fin 3) < 32 ∧ win0_4.index t (1 : Fin 3) < 2 :=
  (by decide +kernel : ∀ t : Fin grid0.N, _)

/-- Every (batch element, row block) is some point's. -/
theorem idx_onto : ∀ (q0 : Fin 32) (q1 : Fin 2), ∃ t : Fin cfg0.N, win0_4.index t = ![q0.val, q1.val, 0] :=
  (by decide +kernel : ∀ (q0 : Fin 32) (q1 : Fin 2), ∃ t : Fin grid0.N, win0_4.index t = ![q0.val, q1.val, 0])

/-! ## The input blocks as rows of the arguments -/

/-- The query block at a point: row r of the block is row (row block · 1024 + r) of the point's batch element. -/
theorem iblk0_apply (c : Dev nD) (t : Fin cfg0.N) (r : Fin 1024) (d : Fin 64) (i : S32x2048x64.Idx)
    (h0 : (i 0).val = win0_4.index t (0 : Fin 3)) (h1 : (i 1).val = win0_4.index t (1 : Fin 3) * 1024 + r.val)
    (h2 : (i 2).val = d.val) :
    (iblk m c 0 t : Vec Ideal S1x1024x64 .f32) (ix3 (0 : Fin 1) r d) = V m c main_arg0 i := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = (i 0).val; omega
  | ⟨1, _⟩ => show win0_0.index t (1 : Fin 3) * 1024 + 1 * r.val = (i 1).val; omega
  | ⟨2, _⟩ => show win0_0.index t (2 : Fin 3) * 64 + 1 * d.val = (i 2).val; omega

/-- The key block at a point: all rows of the point's batch element. -/
theorem iblk1_apply (c : Dev nD) (t : Fin cfg0.N) (j : Fin 2048) (d : Fin 64) (i : S32x2048x64.Idx)
    (h0 : (i 0).val = win0_4.index t (0 : Fin 3)) (h1 : (i 1).val = j.val) (h2 : (i 2).val = d.val) :
    (iblk m c 1 t : Vec Ideal S1x2048x64 .f32) (ix3 (0 : Fin 1) j d) = V m c main_arg1 i := by
  obtain ⟨-, -, -, e0, e1, e2, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = (i 0).val; omega
  | ⟨1, _⟩ => show win0_1.index t (1 : Fin 3) * 2048 + 1 * j.val = (i 1).val; omega
  | ⟨2, _⟩ => show win0_1.index t (2 : Fin 3) * 64 + 1 * d.val = (i 2).val; omega

/-- The value block at a point: all rows of the point's batch element. -/
theorem iblk2_apply (c : Dev nD) (t : Fin cfg0.N) (j : Fin 2048) (d : Fin 64) (i : S32x2048x64.Idx)
    (h0 : (i 0).val = win0_4.index t (0 : Fin 3)) (h1 : (i 1).val = j.val) (h2 : (i 2).val = d.val) :
    (iblk m c 2 t : Vec Ideal S1x2048x64 .f32) (ix3 (0 : Fin 1) j d) = V m c main_arg2 i := by
  obtain ⟨-, -, -, -, -, -, e0, e1, e2, -⟩ := idx_facts t
  unfold iblk
  rw [View.read_apply]
  show V m c main_arg2 _ = V m c main_arg2 _
  congr 1
  funext a
  apply Fin.ext
  match a with
  | ⟨0, _⟩ => show win0_2.index t (0 : Fin 3) * 1 + 1 * 0 = (i 0).val; omega
  | ⟨1, _⟩ => show win0_2.index t (1 : Fin 3) * 2048 + 1 * j.val = (i 1).val; omega
  | ⟨2, _⟩ => show win0_2.index t (2 : Fin 3) * 64 + 1 * d.val = (i 2).val; omega

/-! ## What a point computes -/

/-- When row r of a query block is query row (b, i) and a key block is batch element b's keys, row r of the block's
    scaled scores is the specification's score row of (b, i). -/
theorem rows_eq (X0 : Vec Ideal S1x1024x64 .f32) (X1 : Vec Ideal S1x2048x64 .f32) (q k : Arg) (r : Fin 1024) (b : Fin 32)
    (i : Fin 2048) (h0 : ∀ d : Fin 64, X0 (ix3 (0 : Fin 1) r d) = q (ix3 b i d))
    (h1 : ∀ (j' : Fin 2048) (d : Fin 64), X1 (ix3 (0 : Fin 1) j' d) = k (ix3 b j' d)) :
    (fun j' : Fin 2048 => ∑ d : Fin 64, (X0 (ix3 (0 : Fin 1) r d) * eighth) * X1 (ix3 (0 : Fin 1) j' d)) = score q k b i := by
  funext j'
  unfold score
  refine Finset.sum_congr rfl fun d _ => ?_
  rw [h0 d, h1 j' d]

/-- The point's probabilities at (r, j) are the attention matrix at (batch element, row block · 1024 + r, j). -/
theorem attn_point (c : Dev nD) (t : Fin cfg0.N) (r : Fin 1024) (j : Fin 2048) (b : Fin 32) (i : Fin 2048)
    (hb : b.val = win0_4.index t (0 : Fin 3)) (hi : i.val = win0_4.index t (1 : Fin 3) * 1024 + r.val) :
    k0_pay1 (iblk m c 0 t) (iblk m c 1 t) (ix2 r j) = attn (V m c main_arg0) (V m c main_arg1) (ix3 b i j) := by
  refine (Ker.pay1_apply (iblk m c 0 t) (iblk m c 1 t) r j).trans ?_
  exact congrArg (fun s => softRow s j)
    (rows_eq (iblk m c 0 t) (iblk m c 1 t) (V m c main_arg0) (V m c main_arg1) r b i
      (fun d => iblk0_apply m c t r d (ix3 b i d) hb hi rfl) (fun j' d => iblk1_apply m c t j' d (ix3 b j' d) hb rfl rfl))

/-- The point's output block at (0, r, d) is the output at (batch element, row block · 1024 + r, d). -/
theorem out_point (c : Dev nD) (t : Fin cfg0.N) (r : Fin 1024) (d : Fin 64) (b : Fin 32) (i : Fin 2048)
    (hb : b.val = win0_4.index t (0 : Fin 3)) (hi : i.val = win0_4.index t (1 : Fin 3) * 1024 + r.val) :
    k0_pay3 (iblk m c 0 t) (iblk m c 1 t) (iblk m c 2 t) (ix3 (0 : Fin 1) r d)
      = out (V m c main_arg0) (V m c main_arg1) (V m c main_arg2) (ix3 b i d) := by
  refine (Ker.pay3_apply (iblk m c 0 t) (iblk m c 1 t) (iblk m c 2 t) r d).trans ?_
  show _ = ∑ j : Fin 2048, attn (V m c main_arg0) (V m c main_arg1) (ix3 b i j) * V m c main_arg2 (ix3 b j d)
  refine Finset.sum_congr rfl fun j _ => ?_
  exact congrArg₂ (· * ·) (attn_point m c t r j b i hb hi) (iblk2_apply m c t j d (ix3 b j d) hb rfl rfl)

/-! ## What the body leaves in each output buffer, at an index -/

/-- The attention buffer after the body, at (y0, y1, y2): the probabilities at (y1, y2). -/
theorem out0_4_apply (X0 : Vec Ideal S1x1024x64 .f32) (X1 X2 : Vec Ideal S1x2048x64 .f32) (y : S1x1024x2048.Idx) :
    out0_4 X0 X1 X2 y = k0_pay1 X0 X1 (ix2 (⟨(y 1).val, (y 1).isLt⟩ : Fin 1024) (⟨(y 2).val, (y 2).isLt⟩ : Fin 2048)) := by
  have hix : ix4_0 y = ix2 (⟨(y 1).val, (y 1).isLt⟩ : Fin 1024) (⟨(y 2).val, (y 2).isLt⟩ : Fin 2048) :=
    funext fun a => Fin.ext (by match a with | ⟨0, _⟩ => rfl | ⟨1, _⟩ => rfl)
  unfold out0_4
  rw [Value.canon4_eq]
  show k0_pay1 (View.ld X0 r0_0) (View.ld X1 r0_1) (ix4_0 y) = _
  rw [View.ld_unit_zero (S := S1x1024x64) hz, View.ld_unit_zero (S := S1x2048x64) hz, hix]

/-- The output buffer after the body is the third payload. -/
theorem out0_3_eq (X0 : Vec Ideal S1x1024x64 .f32) (X1 X2 : Vec Ideal S1x2048x64 .f32) :
    out0_3 X0 X1 X2 = k0_pay3 X0 X1 X2 := by
  unfold out0_3
  rw [View.canon_unit_zero hz]
  simp only [View.ld_unit_zero (S := S1x1024x64) hz, View.ld_unit_zero (S := S1x2048x64) hz]

/-! ## A block's index in its array -/

/-- Index y of the attention block of point t is (batch element, row block · 1024 + y1, y2) of the array. -/
theorem emb4 (t : Fin cfg0.N) (y : S1x1024x2048.Idx) (b : Fin 32) (i : Fin 2048)
    (hb : b.val = win0_4.index t (0 : Fin 3)) (hi : i.val = win0_4.index t (1 : Fin 3) * 1024 + (y 1).val) :
    (((cfg0.win 4).blk t).view.emb y : S32x2048x2048.Idx) = ix3 b i (⟨(y 2).val, (y 2).isLt⟩ : Fin 2048) := by
  obtain ⟨-, -, -, -, -, -, -, -, -, -, -, -, e2, -, -⟩ := idx_facts t
  have hy0 : (y 0).val < 1 := (y 0).isLt
  funext a
  apply Fin.ext
  match a with
  | ⟨0, _⟩ => show win0_4.index t (0 : Fin 3) * 1 + 1 * (y 0).val = b.val; omega
  | ⟨1, _⟩ => show win0_4.index t (1 : Fin 3) * 1024 + 1 * (y 1).val = i.val; omega
  | ⟨2, _⟩ => show win0_4.index t (2 : Fin 3) * 2048 + 1 * (y 2).val = (y 2).val; omega

/-- Index y of the output block of point t is (batch element, row block · 1024 + y1, y2) of the array. -/
theorem emb3 (t : Fin cfg0.N) (y : S1x1024x64.Idx) (b : Fin 32) (i : Fin 2048)
    (hb : b.val = win0_4.index t (0 : Fin 3)) (hi : i.val = win0_4.index t (1 : Fin 3) * 1024 + (y 1).val) :
    (((cfg0.win 3).blk t).view.emb y : S32x2048x64.Idx) = ix3 b i (⟨(y 2).val, (y 2).isLt⟩ : Fin 64) := by
  obtain ⟨-, -, -, -, -, -, -, -, -, f0, f1, f2, -⟩ := idx_facts t
  have hy0 : (y 0).val < 1 := (y 0).isLt
  funext a
  apply Fin.ext
  match a with
  | ⟨0, _⟩ => show win0_3.index t (0 : Fin 3) * 1 + 1 * (y 0).val = b.val; omega
  | ⟨1, _⟩ => show win0_3.index t (1 : Fin 3) * 1024 + 1 * (y 1).val = i.val; omega
  | ⟨2, _⟩ => show win0_3.index t (2 : Fin 3) * 64 + 1 * (y 2).val = (y 2).val; omega

/-! ## What a point writes back -/

/-- Point t writes block t of the attention matrix. -/
theorem flushed4_eq (c : Dev nD) (t : Fin cfg0.N) :
    (dats m 0 c).flushed 4 t = ((cfg0.win 4).blk t).view.read (Elt Ideal) (attn (V m c main_arg0) (V m c main_arg1)) := by
  rw [Value.flushed4]
  funext y
  revert y
  show ∀ y : S1x1024x2048.Idx, out0_4 (iblk m c 0 t) (iblk m c 1 t) (iblk m c 2 t) y
    = attn (V m c main_arg0) (V m c main_arg1) (((cfg0.win 4).blk t).view.emb y)
  intro y
  obtain ⟨-, -, -, -, -, -, -, -, -, -, -, -, -, e0, e1⟩ := idx_facts t
  have hy1 : (y 1).val < 1024 := (y 1).isLt
  rw [emb4 t y (⟨win0_4.index t (0 : Fin 3), e0⟩ : Fin 32) (⟨win0_4.index t (1 : Fin 3) * 1024 + (y 1).val, by omega⟩ : Fin 2048) rfl rfl]
  refine (out0_4_apply (iblk m c 0 t) (iblk m c 1 t) (iblk m c 2 t) y).trans ?_
  exact attn_point m c t _ _ _ _ rfl rfl

/-- Point t writes block t of the output. -/
theorem flushed3_eq (c : Dev nD) (t : Fin cfg0.N) :
    (dats m 0 c).flushed 3 t
      = ((cfg0.win 3).blk t).view.read (Elt Ideal) (out (V m c main_arg0) (V m c main_arg1) (V m c main_arg2)) := by
  rw [Value.flushed3]
  funext y
  revert y
  show ∀ y : S1x1024x64.Idx, out0_3 (iblk m c 0 t) (iblk m c 1 t) (iblk m c 2 t) y
    = out (V m c main_arg0) (V m c main_arg1) (V m c main_arg2) (((cfg0.win 3).blk t).view.emb y)
  intro y
  obtain ⟨-, -, -, -, -, -, -, -, -, -, -, -, -, e0, e1⟩ := idx_facts t
  have hy0 : (y 0).val < 1 := (y 0).isLt
  have hy1 : (y 1).val < 1024 := (y 1).isLt
  have hy : y = ix3 (0 : Fin 1) (⟨(y 1).val, hy1⟩ : Fin 1024) (⟨(y 2).val, (y 2).isLt⟩ : Fin 64) :=
    funext fun a => Fin.ext (by
      match a with
      | ⟨0, _⟩ => show (y 0).val = 0; omega
      | ⟨1, _⟩ => rfl
      | ⟨2, _⟩ => rfl)
  rw [emb3 t y (⟨win0_4.index t (0 : Fin 3), e0⟩ : Fin 32) (⟨win0_4.index t (1 : Fin 3) * 1024 + (y 1).val, by omega⟩ : Fin 2048) rfl rfl]
  refine (congrFun (out0_3_eq (iblk m c 0 t) (iblk m c 1 t) (iblk m c 2 t)) y).trans ?_
  refine (congrArg (k0_pay3 (iblk m c 0 t) (iblk m c 1 t) (iblk m c 2 t)) hy).trans ?_
  exact out_point m c t _ _ _ _ rfl rfl

/-! ## The blocks tile the arrays -/

/-- Every index of the attention matrix lies in the block of the point of its batch element and row block. -/
theorem cover4 (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  show i ∈ ((View.whole main_v0_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 2048 ≤ (i 2).val ∧ (i 2).val < win0_4.index t (2 : Fin 3) * 2048 + 2048; omega

/-- Every index of the output lies in the block of the point of its batch element and row block. -/
theorem cover3 (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  obtain ⟨-, -, -, -, -, -, -, -, -, f0, f1, f2, -⟩ := idx_facts t
  have q0 : win0_4.index t (0 : Fin 3) = (i 0).val := congrFun ht 0
  have q1 : win0_4.index t (1 : Fin 3) = (i 1).val / 1024 := congrFun ht 1
  refine ⟨t, flush0_3 t, ?_⟩
  show i ∈ ((View.whole main_v0_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-! ## The arrays after the run -/

/-- The attention matrix's array ends at the specification's function of the queries and keys. -/
theorem final4 (c : Dev nD) : (dats m 0 c).arrAt 4 cfg0.N = attn (V m c main_arg0) (V m c main_arg1) :=
  (dats m 0 c).arrAt_eq_of_cover 4 (attn (V m c main_arg0) (V m c main_arg1)) (fun t _ => flushed4_eq m c t) cover4

/-- The output's array ends at the specification's function of the three arguments. -/
theorem final3 (c : Dev nD) :
    (dats m 0 c).arrAt 3 cfg0.N = out (V m c main_arg0) (V m c main_arg1) (V m c main_arg2) :=
  (dats m 0 c).arrAt_eq_of_cover 3 (out (V m c main_arg0) (V m c main_arg1) (V m c main_arg2))
    (fun t _ => flushed3_eq m c t) cover3

/-- The kernel's run: both results at the specification's functions of the arguments, the arguments unchanged. -/
theorem run : θ_run defs (onTc (τ := τ) (main (F := Ideal))) ⟨m, fun _ => 0, ρ⟩ fun r => ∀ c : Dev nD,
      r.2.mem ((c : Thread nD τ).loc main_v0_0)
        = out (m ((c : Thread nD τ).loc main_arg0)) (m ((c : Thread nD τ).loc main_arg1)) (m ((c : Thread nD τ).loc main_arg2))
      ∧ r.2.mem ((c : Thread nD τ).loc main_v0_1)
        = attn (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final3 m c), (h c).2.1.trans (final4 m c), (h c).2.2⟩)
    (Value.run_blocks m ρ)

end Cert.Attention.Blocks

end
-- ==== Proof.lean ====
/-
  Scaled dot-product attention over f32[32, 2048, 64] queries, keys and values: a kernel that, for each batch
  element and each block of 1024 query rows, scales the queries by 1/8, contracts them with all keys over the head
  dimension, takes the softmax along the keys and contracts the result with the values, against the reference
  `softmax((q · kᵀ) / 8) · v`. Both return the output and the attention matrix.

  On the extended reals the two programs compute the same two functions of the argument arrays (Proof/Softmax.lean):
  the only difference is where the scale sits — the kernel multiplies each query entry by 1/8 before the contraction,
  the reference divides the contraction by 8 — and a nonnegative finite factor distributes over a sum of extended
  reals, at the infinities too, so the two scores agree on every input and the precondition is never opened. The
  row maximum (from minus infinity), the shifted exponentials, their sum (from zero), the quotient and the second
  contraction are the same operations on both sides.

  The kernel's side: the body's arithmetic at an index (Proof/KerPayload.lean), then each result array from the 64
  blocks the grid writes (Proof/KerBlocks.lean). The reference's side: its stages read one at a time
  (Proof/RefSide.lean). The frames of the two kernel programs are the generated ones; the reference's frame is its run
  with the results dropped; the idealization rewrote no operation.
-/
import proofs.«140942_j23364622090566_2_alg».proof.Defs
import proofs.«140942_j23364622090566_2_alg».proof.Proof.Gen.Kernel
import proofs.«140942_j23364622090566_2_alg».proof.Proof.Gen.Kernel.Skeleton
import proofs.«140942_j23364622090566_2_alg».proof.Proof.Gen.Kernel.Launch
import proofs.«140942_j23364622090566_2_alg».proof.Proof.Gen.Kernel.Points
import proofs.«140942_j23364622090566_2_alg».proof.Proof.Gen.Kernel.Frame
import proofs.«140942_j23364622090566_2_alg».proof.Proof.Gen.KernelIdeal
import proofs.«140942_j23364622090566_2_alg».proof.Proof.Gen.KernelIdeal.Skeleton
import proofs.«140942_j23364622090566_2_alg».proof.Proof.Gen.KernelIdeal.Launch
import proofs.«140942_j23364622090566_2_alg».proof.Proof.Gen.KernelIdeal.Points
import proofs.«140942_j23364622090566_2_alg».proof.Proof.Gen.KernelIdeal.Frame
import proofs.«140942_j23364622090566_2_alg».proof.Proof.Gen.ReferenceIdeal
import proofs.«140942_j23364622090566_2_alg».proof.Proof.Gen.Pre_finite_inputs
import proofs.«140942_j23364622090566_2_alg».proof.Proof.Gen.KernelIdeal.Value
import proofs.«140942_j23364622090566_2_alg».proof.Proof.Gen.ReferenceIdeal.Run
import proofs.«140942_j23364622090566_2_alg».proof.Proof.Gen.ReferenceIdeal.Read
import proofs.«140942_j23364622090566_2_alg».proof.Proof.RefSide
import proofs.«140942_j23364622090566_2_alg».proof.Proof.KerBlocks
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing, so there is nothing to preserve. -/
theorem preserves : Cert.preserves_Kernel_KernelIdeal := trivial

/-- From memories agreeing on the arguments both programs end with the output and the attention matrix of
    `Cert.Attention` of those arguments. -/
theorem algebraic : Cert.algebraic_KernelIdeal_ReferenceIdeal := by
  intro m ρ m' ρ' _ hagree
  refine ⟨_, _, Cert.Attention.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine ((Cert.ReferenceIdeal.Read.val_main_v14_eq _ _ _).trans (Cert.Attention.Ref.out_eq _ _ _)).trans ?_
    rw [(hagree c).1, (hagree c).2.1, (hagree c).2.2]
  · refine ((Cert.ReferenceIdeal.Read.val_main_v13_eq _ _).trans (Cert.Attention.Ref.attn_eq _ _)).trans ?_
    rw [(hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
